-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x8192 : Shape := ⟨3, ![8, 1024, 8192]⟩
abbrev S8192x8192 : Shape := ⟨2, ![8192, 8192]⟩
abbrev S8192 : Shape := ⟨1, ![8192]⟩
abbrev S_ : Shape := ⟨0, ![]⟩

class Facts : Prop where
  bcast_S_S8x1024x8192 : S_.BroadcastsInDim S8x1024x8192 (![] : Fin 0 → Fin S8x1024x8192.rank)
  reducesTo_S8x1024x8192_S_d0_1_2 : S8x1024x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x1024x8192 .f32) (main_arg1 : FVec F S8192x8192 .f32) (main_arg2 : FVec F S8192 .f32) : IVec S_ 1 :=
  let main_v0 : FVec F S8x1024x8192 .f32 := Host.absf main_arg0
  let main_cst : FVec F S_ .f32 := constant S_ .f32 0x7F800000#32
  let main_v1 : FVec F S8x1024x8192 .f32 := broadcastInDim S8x1024x8192 ![] bcast_S_S8x1024x8192 main_cst
  let main_v2 : IVec S8x1024x8192 1 := cmpf .olt main_v0 main_v1
  let main_c : IVec S_ 1 := constantI S_ 1 1#1
  let main_v3 : IVec S_ 1 := (fun x v => Host.reduce IntOp.andi x v reducesTo_S8x1024x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x1024x8192 : Shape := ⟨3, ![8, 1024, 8192]⟩
abbrev S8192x8192 : Shape := ⟨2, ![8192, 8192]⟩
abbrev S8192 : Shape := ⟨1, ![8192]⟩
abbrev S1x8192 : Shape := ⟨2, ![1, 8192]⟩
abbrev S4096x128 : Shape := ⟨2, ![4096, 128]⟩
abbrev S128x128 : Shape := ⟨2, ![128, 128]⟩
abbrev S1x128 : Shape := ⟨2, ![1, 128]⟩

abbrev nBuf : Space → Nat
  | .hbm => 7
  | .vmem => 8
  | .smem => 0
  | _ => 0

abbrev bufTy : (tb : Table) → Fin (tcTables nBuf tb) → BufTy
  | .hbm, ⟨0, _⟩ => ⟨S8x1024x8192, .f32⟩
  | .hbm, ⟨1, _⟩ => ⟨S8192x8192, .f32⟩
  | .hbm, ⟨2, _⟩ => ⟨S8192, .f32⟩
  | .hbm, ⟨3, _⟩ => ⟨S8192x8192, .f32⟩
  | .hbm, ⟨4, _⟩ => ⟨S1x8192, .f32⟩
  | .hbm, ⟨5, _⟩ => ⟨S8192x8192, .f32⟩
  | .hbm, ⟨6, _⟩ => ⟨S8x1024x8192, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S8x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x1024x8192_S8192x8192 : S8x1024x8192.ShapeCasts S8192x8192
  shapeCasts_S8192_S1x8192 : S8192.ShapeCasts S1x8192
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S8192x8192_S8x1024x8192 : S8192x8192.ShapeCasts S8x1024x8192
  dot_S4096x128_S128x128_S4096x128_1_1_0_0_n_n_wf : DotDims.WF S4096x128 S128x128 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x8192.size a
  hwx0_0 : ∀ i : grid0.Coords, EltTy.bits .f32 = 32 ∨ (Rect.block (s := S8192x8192) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x8192.size a
  hwx0_1 : ∀ i : grid0.Coords, EltTy.bits .f32 = 32 ∨ (Rect.block (s := S8192x8192) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x8192.size a
  hwx0_2 : ∀ i : grid0.Coords, EltTy.bits .f32 = 32 ∨ (Rect.block (s := S1x8192) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S8192x8192.size a
  hwx0_3 : ∀ i : grid0.Coords, EltTy.bits .f32 = 32 ∨ (Rect.block (s := S8192x8192) S4096x128.size (cc0_transform_3 i) (hinb0_3 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x8192 : Shape := ⟨3, ![8, 1024, 8192]⟩
abbrev S8192x8192 : Shape := ⟨2, ![8192, 8192]⟩
abbrev S8192 : Shape := ⟨1, ![8192]⟩
abbrev S64x64 : Shape := ⟨2, ![64, 64]⟩
abbrev S_ : Shape := ⟨0, ![]⟩
abbrev S128x128 : Shape := ⟨2, ![128, 128]⟩
abbrev S64x1x64x1 : Shape := ⟨4, ![64, 1, 64, 1]⟩
abbrev S1x128x1x128 : Shape := ⟨4, ![1, 128, 1, 128]⟩
abbrev S64x128x64x128 : Shape := ⟨4, ![64, 128, 64, 128]⟩
abbrev S1x1x8192 : Shape := ⟨3, ![1, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x8192, .f32⟩
  | .hbm, ⟨1, _⟩ => ⟨S8192x8192, .f32⟩
  | .hbm, ⟨2, _⟩ => ⟨S8192, .f32⟩
  | .hbm, ⟨3, _⟩ => ⟨S64x64, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .f32⟩
  | .hbm, ⟨10, _⟩ => ⟨S_, .f32⟩
  | .hbm, ⟨11, _⟩ => ⟨S128x128, .f32⟩
  | .hbm, ⟨12, _⟩ => ⟨S64x1x64x1, .f32⟩
  | .hbm, ⟨13, _⟩ => ⟨S1x128x1x128, .f32⟩
  | .hbm, ⟨14, _⟩ => ⟨S64x128x64x128, .f32⟩
  | .hbm, ⟨15, _⟩ => ⟨S64x128x64x128, .f32⟩
  | .hbm, ⟨16, _⟩ => ⟨S64x128x64x128, .f32⟩
  | .hbm, ⟨17, _⟩ => ⟨S8192x8192, .f32⟩
  | .hbm, ⟨18, _⟩ => ⟨S8192x8192, .f32⟩
  | .hbm, ⟨19, _⟩ => ⟨S8x1024x8192, .f32⟩
  | .hbm, ⟨20, _⟩ => ⟨S1x1x8192, .f32⟩
  | .hbm, ⟨21, _⟩ => ⟨S8x1024x8192, .f32⟩
  | .hbm, ⟨22, _⟩ => ⟨S8x1024x8192, .f32⟩
  | .hbm, ⟨23, _⟩ => ⟨S_, .f32⟩
  | .hbm, ⟨24, _⟩ => ⟨S8x1024x8192, .f32⟩
  | .hbm, ⟨25, _⟩ => ⟨S8x1024x8192, .f32⟩
  | .hbm, ⟨26, _⟩ => ⟨S8x1024x8192, .f32⟩
  | .hbm, ⟨27, _⟩ => ⟨S_, .f32⟩
  | .hbm, ⟨28, _⟩ => ⟨S8x1024x8192, .f32⟩
  | .hbm, ⟨29, _⟩ => ⟨S8x1024x8192, .f32⟩
  | .hbm, ⟨30, _⟩ => ⟨S8x1024x8192, .f32⟩
  | .hbm, ⟨31, _⟩ => ⟨S8x1024x8192, .f32⟩
  | .hbm, ⟨32, _⟩ => ⟨S8x1024x8192, .f32⟩
  | .hbm, ⟨33, _⟩ => ⟨S8x1024x8192, .f32⟩
  | _, _ => ⟨S8x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S_S128x128 : S_.BroadcastsInDim S128x128 (![] : Fin 0 → Fin S128x128.rank)
  bcast_S64x64_S64x1x64x1_0_2 : S64x64.BroadcastsInDim S64x1x64x1 (![0, 2] : Fin 2 → Fin S64x1x64x1.rank)
  bcast_S128x128_S1x128x1x128_1_3 : S128x128.BroadcastsInDim S1x128x1x128 (![1, 3] : Fin 2 → Fin S1x128x1x128.rank)
  bcast_S64x1x64x1_S64x128x64x128_0_1_2_3 : S64x1x64x1.BroadcastsInDim S64x128x64x128 (![0, 1, 2, 3] : Fin 4 → Fin S64x128x64x128.rank)
  bcast_S1x128x1x128_S64x128x64x128_0_1_2_3 : S1x128x1x128.BroadcastsInDim S64x128x64x128 (![0, 1, 2, 3] : Fin 4 → Fin S64x128x64x128.rank)
  shapeCasts_S64x128x64x128_S8192x8192 : S64x128x64x128.ShapeCasts S8192x8192
  bcast_S8192_S1x1x8192_2 : S8192.BroadcastsInDim S1x1x8192 (![2] : Fin 1 → Fin S1x1x8192.rank)
  bcast_S1x1x8192_S8x1024x8192_0_1_2 : S1x1x8192.BroadcastsInDim S8x1024x8192 (![0, 1, 2] : Fin 3 → Fin S8x1024x8192.rank)
  bcast_S_S8x1024x8192 : S_.BroadcastsInDim S8x1024x8192 (![] : Fin 0 → Fin S8x1024x8192.rank)
  dot_S8x1024x8192_S8192x8192_S8x1024x8192_2_1_01_0_n_n_wf : DotDims.WF S8x1024x8192 S8192x8192 S8x1024x8192 [2] [1] [0, 1] [0] [] []

variable [Facts₀]

def dot_S8x1024x8192_S8192x8192_S8x1024x8192_2_1_01_0_n_n : DotDims S8x1024x8192 S8192x8192 S8x1024x8192 where
  lhsContracting := [2]
  rhsContracting := [1]
  lhsNonContracting := [0, 1]
  rhsNonContracting := [0]
  lhsBatch := []
  rhsBatch := []
  wf := dot_S8x1024x8192_S8192x8192_S8x1024x8192_2_1_01_0_n_n_wf

class Facts : Prop extends Facts₀ where

variable [Facts]
-- ==== Proof.BlockDiag.lean ====
/-
  The mathematics both programs share, stated over extended reals and over no program.

  The weight matrix is read through a block-diagonal mask: 64 diagonal blocks of 128 x 128.  Output feature `o`
  lies in block `o / 128`, and only the 128 input features of that same block contribute to it; every other
  term of the dense contraction over all 8192 input features is multiplied by a zero of the mask.  So the dense
  sum collapses to the sum over one block (`sum_block`, `masked_sum`): no finiteness is needed, because a zero
  factor annihilates every extended real.

  On the pre-activation `z` both programs apply the same function, `wire z = sin (30 z) * exp (-(0.1 z)^2)`, with the
  same two float literals; one program writes the negation as `0 - y`, the other as `-y` (`wire_of_zero_sub`).
-/
import Idealize.ShloMosaic.PureOps.Ideal
import Idealize.ShloMosaic.PureOps.Ideal.Laws
import Idealize.ShloMosaic.Lib.ValueIdx

noncomputable section

namespace Cert.BlockDiag

open Idealize.ShloMosaic Idealize.ShloMosaic.ValueIdx

/-! ## The activation -/

/-- `sin (30 z) * exp (-(0.1 z)^2)`, the two scales being the float literals of 30 and of 0.1. -/
def wire (z : EReal) : EReal :=
  Ideal.sin (Ideal.ofBits .f32 0x41F00000#32 * z)
    * Ideal.exp (-((Ideal.ofBits .f32 0x3DCCCCCD#32 * z) * (Ideal.ofBits .f32 0x3DCCCCCD#32 * z)))

/-- The negation written as a subtraction from the zero literal is the same function. -/
theorem wire_of_zero_sub (z : EReal) :
    Ideal.sin (Ideal.ofBits .f32 0x41F00000#32 * z)
      * Ideal.exp (Ideal.ofBits .f32 0x00000000#32
          - (Ideal.ofBits .f32 0x3DCCCCCD#32 * z) * (Ideal.ofBits .f32 0x3DCCCCCD#32 * z)) = wire z := by
  unfold wire
  rw [Ideal.ofBits_zero_f32, zero_sub]

/-! ## Blocks of the feature axis -/

/-- Column `j` of diagonal block `q`, as a feature index. -/
def inBlock (q : Fin 64) (j : Fin 128) : Fin 8192 :=
  ⟨128 * q.val + j.val, by have := q.isLt; have := j.isLt; omega⟩

/-- The diagonal block a feature lies in. -/
def blockOf (o : Fin 8192) : Fin 64 := ⟨o.val / 128, by have := o.isLt; omega⟩

theorem inBlock_val (q : Fin 64) (j : Fin 128) : (inBlock q j).val = 128 * q.val + j.val := rfl
theorem blockOf_val (o : Fin 8192) : (blockOf o).val = o.val / 128 := rfl

/-- A sum over all 8192 features of a function that vanishes outside block `q` is the sum over that block's 128
    columns. -/
theorem sum_block (f : Fin 8192 → EReal) (q : Fin 64) :
    ∑ k : Fin 8192, (if k.val / 128 = q.val then f k else 0) = ∑ j : Fin 128, f (inBlock q j) := by
  rw [← Finset.sum_filter]
  refine Finset.sum_bij' (fun k _ => (⟨k.val % 128, Nat.mod_lt _ (by decide)⟩ : Fin 128)) (fun j _ => inBlock q j)
    (fun _ _ => Finset.mem_univ _) (fun j _ => ?_) (fun k hk => ?_) (fun j _ => ?_) (fun k hk => ?_)
  · rw [Finset.mem_filter]
    refine ⟨Finset.mem_univ _, ?_⟩
    show (128 * q.val + j.val) / 128 = q.val
    have := j.isLt; omega
  · rw [Finset.mem_filter] at hk
    apply Fin.ext
    show 128 * q.val + k.val % 128 = k.val
    have := hk.2; omega
  · apply Fin.ext
    show (128 * q.val + j.val) % 128 = j.val
    have := j.isLt; omega
  · rw [Finset.mem_filter] at hk
    congr 1
    apply Fin.ext
    show k.val = 128 * q.val + k.val % 128
    have := hk.2; omega

/-- The dense contraction against a weight row masked to block `q` (the mask a 0/1 factor on the weight) is the
    contraction over block `q` alone. -/
theorem masked_sum (a w : Fin 8192 → EReal) (q : Fin 64) :
    ∑ k : Fin 8192, a k * (w k * (if k.val / 128 = q.val then (1 : EReal) else 0))
      = ∑ j : Fin 128, a (inBlock q j) * w (inBlock q j) := by
  rw [← sum_block (fun k => a k * w k) q]
  refine Finset.sum_congr rfl fun k _ => ?_
  by_cases h : k.val / 128 = q.val
  · rw [if_pos h, if_pos h, mul_one]
  · rw [if_neg h, if_neg h, mul_zero, mul_zero]

/-! ## The mask's entries -/

/-- The identity pattern's word, read as a number: comparing two block numbers below 64 as 32-bit words (the
    first with a zero word added) and reading the one-bit answer as an unsigned integer gives 1 when they are
    equal and 0 when not. -/
theorem eye_entry (a b : Nat) (ha : a < 64) (hb : b < 64) :
    (((IntOp.cmpi .eq (IntOp.addi (BitVec.ofNat 32 a) 0#32) (BitVec.ofNat 32 b)).toNat : ℝ) : EReal)
      = if a = b then (1 : EReal) else 0 := by
  unfold IntOp.cmpi IntOp.addi
  rw [BitVec.add_zero]
  by_cases h : a = b
  · subst h
    simp
  · have hne : (BitVec.ofNat 32 a == BitVec.ofNat 32 b) = false := by
      rw [beq_eq_false_iff_ne]
      intro e
      have e' := congrArg BitVec.toNat e
      simp only [BitVec.toNat_ofNat] at e'
      omega
    rw [if_neg h]
    simp [hne]

/-- The float literal of one is one. -/
theorem ofBits_one : Ideal.ofBits .f32 0x3F800000#32 = (1 : EReal) := by
  simp [Ideal.ofBits, Ideal.ieee, -EReal.coe_mul]
  norm_num

end Cert.BlockDiag

end
-- ==== Proof.Dense.lean ====
/-
  The result as ONE function of the three argument arrays, index by index.

  Output feature `o` of token `(b, n)` is `wire` of the pre-activation
  `sum over the 128 columns k of o's diagonal block of x[b, n, k] * weight[o, k]  +  bias[o]`.
  The same function is also written for the two-dimensional layout `[8192 tokens, 8192 features]` with the bias as one
  row `[1, 8192]` — the layout one of the two programs computes in; token `(b, n)` is row `1024 b + n` of it.
-/
import proofs.«111860_j61572651155930_2_alg».proof.Proof.BlockDiag

noncomputable section

namespace Cert.BlockDiag

open Idealize.ShloMosaic Idealize.ShloMosaic.ValueIdx

/-- The pre-activation of token `(b, n)`, feature `o`, over the three-dimensional input. -/
def pre3 (x : (⟨3, ![8, 1024, 8192]⟩ : Shape).Idx → EReal) (w : (⟨2, ![8192, 8192]⟩ : Shape).Idx → EReal)
    (bias : (⟨1, ![8192]⟩ : Shape).Idx → EReal) (b : Fin 8) (n : Fin 1024) (o : Fin 8192) : EReal :=
  (∑ j : Fin 128, x (ix3 b n (inBlock (blockOf o) j)) * w (ix2 o (inBlock (blockOf o) j))) + bias (ix1 o)

/-- The whole result, `[8, 1024, 8192]`. -/
def out3 (x : (⟨3, ![8, 1024, 8192]⟩ : Shape).Idx → EReal) (w : (⟨2, ![8192, 8192]⟩ : Shape).Idx → EReal)
    (bias : (⟨1, ![8192]⟩ : Shape).Idx → EReal) : (⟨3, ![8, 1024, 8192]⟩ : Shape).Idx → EReal :=
  fun i => wire (pre3 x w bias (i 0) (i 1) (i 2))

/-- The pre-activation of row `r`, feature `o`, over the token-major two-dimensional input and the bias as a row. -/
def pre2 (x : (⟨2, ![8192, 8192]⟩ : Shape).Idx → EReal) (w : (⟨2, ![8192, 8192]⟩ : Shape).Idx → EReal)
    (bias : (⟨2, ![1, 8192]⟩ : Shape).Idx → EReal) (r : Fin 8192) (o : Fin 8192) : EReal :=
  (∑ j : Fin 128, x (ix2 r (inBlock (blockOf o) j)) * w (ix2 o (inBlock (blockOf o) j))) + bias (ix2 (0 : Fin 1) o)

/-- The whole result in the two-dimensional layout, `[8192, 8192]`. -/
def out2 (x : (⟨2, ![8192, 8192]⟩ : Shape).Idx → EReal) (w : (⟨2, ![8192, 8192]⟩ : Shape).Idx → EReal)
    (bias : (⟨2, ![1, 8192]⟩ : Shape).Idx → EReal) : (⟨2, ![8192, 8192]⟩ : Shape).Idx → EReal :=
  fun i => wire (pre2 x w bias (i 0) (i 1))

end Cert.BlockDiag

end
-- ==== Proof.RefDense.lean ====
/-
  The reference computes `out3`.

  Its mask is the Kronecker product of the 64 x 64 identity with a 128 x 128 block of ones, laid out as
  `[64, 128, 64, 128]` and flattened to `[8192, 8192]`: entry `(o, k)` is the identity's entry
  `(o / 128, k / 128)` times one (`mask_apply`).  The weight is multiplied by it and contracted with the input over
  all 8192 features; by `masked_sum` only the columns of `o`'s own block remain.  The bias is broadcast along
  the two token axes, and the activation is applied elementwise.
-/
import proofs.«111860_j61572651155930_2_alg».proof.Proof.Gen.ReferenceIdeal.Read
import proofs.«111860_j61572651155930_2_alg».proof.Proof.Dense

noncomputable section

namespace Cert.ReferenceIdeal.Dense

open Cert.ReferenceIdeal Cert.ReferenceIdeal.Gen Idealize.ShloMosaic Idealize.ShloMosaic.ValueIdx Cert.BlockDiag

/-- Row-major position `8192 a + c` of the `[8192, 8192]` layout, read in the `[64, 128, 64, 128]` layout, has first
    coordinate `a / 128` (the row's block) … -/
theorem flat_row (a c : Nat) (ha : a < 8192) (hc : c < 8192) : (a * 8192 + c) / 1048576 = a / 128 := by omega

/-- … and third coordinate `c / 128` (the column's block). -/
theorem flat_col (a c : Nat) (ha : a < 8192) (hc : c < 8192) : (a * 8192 + c) / 128 % 64 = c / 128 := by omega

/-- Entry `(o, k)` of the mask is one when `o` and `k` lie in the same block of 128, zero otherwise. -/
theorem mask_apply (j : S8192x8192.Idx) :
    Read.val_main_v7 (F := Ideal) j = if (j 0).val / 128 = (j 1).val / 128 then (1 : EReal) else 0 := by
  rw [Read.val_main_v7_apply, Read.val_main_call0_v4_apply, Read.val_main_call0_v2_apply, Read.val_main_call0_v0_apply,
    Read.val_main_v5_apply, Read.val_main_v4_apply, Read.val_main_v3_apply, Read.val_main_v0_apply, Read.val_main_v2_apply,
    Read.val_main_c_apply, Read.val_main_v1_apply, Read.val_main_call0_v3_apply, Read.val_main_call0_v1_apply,
    Read.val_main_v6_apply, Read.val_main_cst_apply]
  have h0 : (j 0).val < 8192 := (j 0).isLt
  have h1 : (j 1).val < 8192 := (j 1).isLt
  show (((IntOp.cmpi .eq (IntOp.addi (BitVec.ofNat 32 (((j 0).val * 8192 + (j 1).val) / 1048576)) 0#32)
      (BitVec.ofNat 32 (((j 0).val * 8192 + (j 1).val) / 128 % 64))).toNat : ℝ) : EReal) * Ideal.ofBits .f32 0x3F800000#32 = _
  rw [eye_entry _ _ (by omega) (by omega), ofBits_one, mul_one, flat_row _ _ h0 h1, flat_col _ _ h0 h1]

/-- The pre-activation stage of the reference is `pre3`. -/
theorem pre_apply (x0 : S8x1024x8192.Idx → EReal) (x1 : S8192x8192.Idx → EReal) (x2 : S8192.Idx → EReal) (i : S8x1024x8192.Idx) :
    Read.val_main_v12 (F := Ideal) x0 x1 x2 i = pre3 x0 x1 x2 (i 0) (i 1) (i 2) := by
  rw [Read.val_main_v12_apply, Read.val_main_v9_apply, Read.val_main_v11_apply, Read.val_main_v10_apply]
  show (∑ k : Fin 8192, x0 (Read.lidx_main_v9 i k) * Read.val_main_v8 (F := Ideal) x1 (Read.ridx_main_v9 i k))
      + x2 (Read.idx_main_v10 (Read.idx_main_v11 i)) = _
  unfold pre3
  congr 1
  · rw [← masked_sum (fun k => x0 (ix3 (i 0) (i 1) k)) (fun k => x1 (ix2 (i 2) k)) (blockOf (i 2))]
    refine Finset.sum_congr rfl fun k _ => ?_
    rw [Read.val_main_v8_apply, mask_apply]
    have e1 : Read.lidx_main_v9 i k = ix3 (i 0) (i 1) k :=
      funext fun a => Fin.ext (by match a with | ⟨0, _⟩ => rfl | ⟨1, _⟩ => rfl | ⟨2, _⟩ => rfl)
    have e2 : Read.ridx_main_v9 i k = ix2 (i 2) k :=
      funext fun a => Fin.ext (by match a with | ⟨0, _⟩ => rfl | ⟨1, _⟩ => rfl)
    rw [e1, e2]
    show _ * (_ * (if (i 2).val / 128 = k.val / 128 then (1 : EReal) else 0)) = _
    congr 2
    exact if_congr eq_comm rfl rfl
  · congr 1
    funext a
    match a with
    | ⟨0, _⟩ => rfl

/-- The reference's last stage is `out3` of its three arguments. -/
theorem result_eq (x0 : S8x1024x8192.Idx → EReal) (x1 : S8192x8192.Idx → EReal) (x2 : S8192.Idx → EReal) :
    Read.val_main_v21 (F := Ideal) x0 x1 x2 = out3 x0 x1 x2 := by
  funext i
  rw [Read.val_main_v21_apply, Read.val_main_v15_apply, Read.val_main_v14_apply, Read.val_main_v13_apply,
    Read.val_main_cst_0_apply, Read.val_main_v20_apply, Read.val_main_v19_apply, Read.val_main_v18_apply,
    Read.val_main_v17_apply, Read.val_main_v16_apply, Read.val_main_cst_1_apply, pre_apply]
  rfl

end Cert.ReferenceIdeal.Dense

end
-- ==== Proof.BlockBody.lean ====
/-
  What one grid point computes, index by index.

  The body holds a block of 4096 tokens by 128 input features, the 128 x 128 diagonal weight block (rows are output
  features, columns input features) and the 128 bias entries of that block as one row.  Entry `(r, c)` of what it
  stores is `wire` of: the sum over the 128 shared input features `k` of `tokens[r, k] * weights[c, k]` (both
  operands contracted along their second axis, the change of float format before the product being the identity
  on extended reals, the accumulator zero), plus `bias[0, c]` (the row spread over all 4096 tokens).
-/
import proofs.«111860_j61572651155930_2_alg».proof.Proof.Gen.KernelIdeal.Skeleton
import proofs.«111860_j61572651155930_2_alg».proof.Proof.Dense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx Cert.BlockDiag

/-- The left operand is read at the output's row … -/
theorem lhs_row (j : S4096x128.Idx) (q : dot_S4096x128_S128x128_S4096x128_1_1_0_0_n_n.contr.Idx) :
    (dot_S4096x128_S128x128_S4096x128_1_1_0_0_n_n.lhsIdx j q 0).val = (j 0).val := by
  unfold DotDims.lhsIdx
  rw [dif_neg (show ¬(0 : Fin S4096x128.rank) ∈ dot_S4096x128_S128x128_S4096x128_1_1_0_0_n_n.lhsBatch by decide),
    dif_pos (show (0 : Fin S4096x128.rank) ∈ dot_S4096x128_S128x128_S4096x128_1_1_0_0_n_n.lhsNonContracting by decide)]
  rfl

/-- … and at the contracted coordinate along its second axis; -/
theorem lhs_col (j : S4096x128.Idx) (q : dot_S4096x128_S128x128_S4096x128_1_1_0_0_n_n.contr.Idx) :
    (dot_S4096x128_S128x128_S4096x128_1_1_0_0_n_n.lhsIdx j q 1).val = (q ⟨0, by decide⟩).val :=
  dot_S4096x128_S128x128_S4096x128_1_1_0_0_n_n.lhsIdx_val_of_single rfl j q

/-- the right operand at the output's column, as ITS row, … -/
theorem rhs_row (j : S4096x128.Idx) (q : dot_S4096x128_S128x128_S4096x128_1_1_0_0_n_n.contr.Idx) :
    (dot_S4096x128_S128x128_S4096x128_1_1_0_0_n_n.rhsIdx j q 0).val = (j 1).val := by
  unfold DotDims.rhsIdx
  rw [dif_neg (show ¬(0 : Fin S128x128.rank) ∈ dot_S4096x128_S128x128_S4096x128_1_1_0_0_n_n.rhsBatch by decide),
    dif_pos (show (0 : Fin S128x128.rank) ∈ dot_S4096x128_S128x128_S4096x128_1_1_0_0_n_n.rhsNonContracting by decide)]
  rfl

/-- … and at the contracted coordinate along its second axis too. -/
theorem rhs_col (j : S4096x128.Idx) (q : dot_S4096x128_S128x128_S4096x128_1_1_0_0_n_n.contr.Idx) :
    (dot_S4096x128_S128x128_S4096x128_1_1_0_0_n_n.rhsIdx j q 1).val = (q ⟨0, by decide⟩).val :=
  dot_S4096x128_S128x128_S4096x128_1_1_0_0_n_n.rhsIdx_val_of_single rfl j q

/-- The block's product into a zero accumulator, at `(r, c)`: the sum over the shared axis `k` of
    `a[r, k] * w[c, k]`. -/
theorem block_product (a : FVec Ideal S4096x128 .bf16) (w : FVec Ideal S128x128 .bf16) (r : Fin 4096) (c : Fin 128) :
    matmul dot_S4096x128_S128x128_S4096x128_1_1_0_0_n_n none a w (constant (F := Ideal) S4096x128 .f32 0x00000000#32) (ix2 r c)
      = ∑ k : Fin 128, a (ix2 r k) * w (ix2 c k) := by
  refine (Ideal.matmul_constant_zero_apply dot_S4096x128_S128x128_S4096x128_1_1_0_0_n_n none a w (ix2 r c)).trans ?_
  rw [← Equiv.sum_comp (contrEquiv1 dot_S4096x128_S128x128_S4096x128_1_1_0_0_n_n 128 rfl rfl).symm]
  refine Finset.sum_congr rfl fun k _ => ?_
  have hk := contrEquiv1_symm_val dot_S4096x128_S128x128_S4096x128_1_1_0_0_n_n 128 rfl rfl k
  have el : dot_S4096x128_S128x128_S4096x128_1_1_0_0_n_n.lhsIdx (ix2 r c) ((contrEquiv1 dot_S4096x128_S128x128_S4096x128_1_1_0_0_n_n 128 rfl rfl).symm k) = ix2 r k :=
    funext fun ax => Fin.ext (by
      match ax with
      | ⟨0, _⟩ => exact lhs_row _ _
      | ⟨1, _⟩ => exact (lhs_col _ _).trans hk)
  have er : dot_S4096x128_S128x128_S4096x128_1_1_0_0_n_n.rhsIdx (ix2 r c) ((contrEquiv1 dot_S4096x128_S128x128_S4096x128_1_1_0_0_n_n 128 rfl rfl).symm k) = ix2 c k :=
    funext fun ax => Fin.ext (by
      match ax with
      | ⟨0, _⟩ => exact rhs_row _ _
      | ⟨1, _⟩ => exact (rhs_col _ _).trans hk)
  rw [el, er]

/-- The pre-activation the body forms, at `(r, c)`. -/
theorem pre_apply (x0 : FVec Ideal S4096x128 .f32) (x1 : FVec Ideal S128x128 .f32) (x2 : FVec Ideal S1x128 .f32)
    (r : Fin 4096) (c : Fin 128) :
    addf (matmul dot_S4096x128_S128x128_S4096x128_1_1_0_0_n_n none
        (truncf .bf16 (shapeCast S4096x128 x0 shapeCasts_S4096x128_S4096x128) bitsLt_bf16_f32)
        (truncf .bf16 x1 bitsLt_bf16_f32) (constant (F := Ideal) S4096x128 .f32 0x00000000#32))
      (broadcastTo S4096x128 (shapeCast S1x128 x2 shapeCasts_S1x128_S1x128) broadcasts_S1x128_S4096x128) (ix2 r c)
      = (∑ k : Fin 128, x0 (ix2 r k) * x1 (ix2 c k)) + x2 (ix2 (0 : Fin 1) c) := by
  rw [shapeCast_self, shapeCast_self]
  refine (addf_apply _ _ (ix2 r c)).trans ?_
  rw [block_product, broadcastTo_1b_ab_apply]
  rfl

/-- What the body stores, at `(r, c)`. -/
theorem stored_apply (x0 : FVec Ideal S4096x128 .f32) (x1 : FVec Ideal S128x128 .f32) (x2 : FVec Ideal S1x128 .f32)
    (r : Fin 4096) (c : Fin 128) :
    k0_pay1 (F := Ideal) x0 x1 x2 (ix2 r c)
      = wire ((∑ k : Fin 128, x0 (ix2 r k) * x1 (ix2 c k)) + x2 (ix2 (0 : Fin 1) c)) := by
  unfold k0_pay1
  refine Eq.trans ?_ ((wire_of_zero_sub _).trans (congrArg wire (pre_apply x0 x1 x2 r c)))
  rfl

end Cert.KernelIdeal.Dense

end
-- ==== Proof.RegionArray.lean ====
/-
  The array the region writes, as one function of the arrays it reads.

  The grid has 64 x 2 points `(q, h)`: `q` a diagonal block, `h` a half of the 8192 tokens.  At that point the
  token window holds rows `4096 h …` and columns `128 q …` of the token-major input, the weight window the diagonal
  block `(q, q)`, the bias window columns `128 q …` of the bias row, and the output window rows `4096 h …`,
  columns `128 q …` of the output.  So for an output entry `(r, o)` in that block, `o / 128 = q`, and the body's sum
  over its 128 shared features is the sum over the columns of `o`'s own diagonal block: the block written back is
  a block of `out2`.  The 128 output blocks tile the `[8192, 8192]` array, hence the array ends as `out2`.
-/
import proofs.«111860_j61572651155930_2_alg».proof.Proof.Gen.KernelIdeal.Frame
import proofs.«111860_j61572651155930_2_alg».proof.Proof.BlockBody
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx Cert.BlockDiag
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- How the four windows' block indices are related at every grid point: tokens and output move together; the
    weight block is the diagonal one of the output's column block; the bias block is that column block of the one
    row; and the output's block indices stay inside 2 x 64. -/
theorem index_relations : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (1 : Fin 2)
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 1
    ∧ win0_3.index t (1 : Fin 2) ≤ 63 :=
  (by decide +kernel : ∀ t : Fin grid0.N, _)

/-- Every one of the 2 x 64 output blocks is some grid point's. -/
theorem every_block : ∀ (q0 : Fin 2) (q1 : Fin 64), ∃ t : Fin cfg0.N, win0_3.index t = ![q0.val, q1.val] :=
  (by decide +kernel : ∀ (q0 : Fin 2) (q1 : Fin 64), ∃ t : Fin grid0.N, win0_3.index t = ![q0.val, q1.val])

/-! ## Each input block, read off its array -/

/-- The token block at point `t`: entry `y` is the token-major input at row `4096 * (block row) + y 0`, column
    `128 * (block column) + y 1`. -/
theorem tokens_apply (c : Dev nD) (t : Fin cfg0.N) (y : S4096x128.Idx) (i : S8192x8192.Idx)
    (h0 : (i 0).val = win0_0.index t (0 : Fin 2) * 4096 + (y 0).val)
    (h1 : (i 1).val = win0_0.index t (1 : Fin 2) * 128 + (y 1).val) :
    (iblk m c 0 t : Vec Ideal S4096x128 .f32) y = (V m c main_v0 : S8192x8192.Idx → EReal) i := by
  unfold iblk
  rw [View.read_apply]
  show V m c main_v0 _ = V m c main_v0 _
  congr 1
  funext a
  apply Fin.ext
  match a with
  | ⟨0, _⟩ => show win0_0.index t (0 : Fin 2) * 4096 + 1 * (y 0).val = (i 0).val; omega
  | ⟨1, _⟩ => show win0_0.index t (1 : Fin 2) * 128 + 1 * (y 1).val = (i 1).val; omega

/-- The weight block at point `t`. -/
theorem weights_apply (c : Dev nD) (t : Fin cfg0.N) (y : S128x128.Idx) (i : S8192x8192.Idx)
    (h0 : (i 0).val = win0_1.index t (0 : Fin 2) * 128 + (y 0).val)
    (h1 : (i 1).val = win0_1.index t (1 : Fin 2) * 128 + (y 1).val) :
    (iblk m c 1 t : Vec Ideal S128x128 .f32) y = (V m c main_arg1 : S8192x8192.Idx → EReal) i := by
  unfold iblk
  rw [View.read_apply]
  show V m c main_arg1 _ = V m c main_arg1 _
  congr 1
  funext a
  apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- The bias block at point `t`. -/
theorem bias_apply (c : Dev nD) (t : Fin cfg0.N) (y : S1x128.Idx) (i : S1x8192.Idx)
    (h0 : (i 0).val = win0_2.index t (0 : Fin 2) * 1 + (y 0).val)
    (h1 : (i 1).val = win0_2.index t (1 : Fin 2) * 128 + (y 1).val) :
    (iblk m c 2 t : Vec Ideal S1x128 .f32) y = (V m c main_v1 : S1x8192.Idx → EReal) i := by
  unfold iblk
  rw [View.read_apply]
  show V m c main_v1 _ = V m c main_v1 _
  congr 1
  funext a
  apply Fin.ext
  match a with
  | ⟨0, _⟩ => show win0_2.index t (0 : Fin 2) * 1 + 1 * (y 0).val = (i 0).val; omega
  | ⟨1, _⟩ => show win0_2.index t (1 : Fin 2) * 128 + 1 * (y 1).val = (i 1).val; omega

/-! ## One point's stored block is a block of `out2` -/

/-- If the three loaded blocks are the arrays `X`, `W`, `B` read along output entry `i`'s row, along `i`'s feature
    row of the weights, and at `i`'s feature of the bias — each over the columns of `i`'s diagonal block —, then the
    body's stored value at `y` is `out2 X W B` at `i`. -/
theorem stored_eq_out2 (x0 : FVec Ideal S4096x128 .f32) (x1 : FVec Ideal S128x128 .f32) (x2 : FVec Ideal S1x128 .f32)
    (X W : S8192x8192.Idx → EReal) (B : S1x8192.Idx → EReal) (y : S4096x128.Idx) (i : S8192x8192.Idx)
    (hx : ∀ k : Fin 128, x0 (ix2 (y 0) k) = X (ix2 (i 0) (inBlock (blockOf (i 1)) k)))
    (hw : ∀ k : Fin 128, x1 (ix2 (y 1) k) = W (ix2 (i 1) (inBlock (blockOf (i 1)) k)))
    (hb : x2 (ix2 (0 : Fin 1) (y 1)) = B (ix2 (0 : Fin 1) (i 1))) :
    k0_pay1 (F := Ideal) x0 x1 x2 y = out2 X W B i := by
  refine ((congrArg (k0_pay1 (F := Ideal) x0 x1 x2) (eq_ix2 y)).trans (stored_apply x0 x1 x2 (y 0) (y 1))).trans ?_
  unfold out2 pre2
  refine congrArg wire ?_
  rw [hb]
  refine congrArg (· + B (ix2 (0 : Fin 1) (i 1))) ?_
  exact Finset.sum_congr rfl fun k _ => by rw [hx k, hw k]

/-- WHAT POINT `t` WRITES BACK is block `t` of `out2` of the arrays as the region finds them. -/
theorem flushed_eq (c : Dev nD) (t : Fin cfg0.N) :
    (dats m 0 c).flushed 3 t
      = ((cfg0.win 3).blk t).view.read (Elt Ideal) (out2 (V m c main_v0) (V m c main_arg1) (V m c main_v1)) := by
  show (cfg0.win 3).cut (grid0.coords t) ((dats m 0 c).after 3 t) = _
  rw [after0_3]
  unfold out0_3
  rw [View.canon_unit_zero offsets_zero]
  simp only [View.ld_unit_zero (S := S4096x128) offsets_zero, View.ld_unit_zero (S := S128x128) offsets_zero,
    View.ld_unit_zero (S := S1x128) offsets_zero]
  obtain ⟨e0, e1, e2, e3, e4, e5, e6, e7⟩ := index_relations t
  funext y
  show k0_pay1 (F := Ideal) (iblk m c 0 t) (iblk m c 1 t) (iblk m c 2 t) y
    = out2 (V m c main_v0) (V m c main_arg1) (V m c main_v1) (((cfg0.win 3).blk t).view.emb y)
  have hy0 : (y 0).val < 4096 := (y 0).isLt
  have hy1 : (y 1).val < 128 := (y 1).isLt
  refine stored_eq_out2 (iblk m c 0 t) (iblk m c 1 t) (iblk m c 2 t) (V m c main_v0) (V m c main_arg1) (V m c main_v1)
    y (((cfg0.win 3).blk t).view.emb y) (fun k => ?_) (fun k => ?_) ?_
  · refine tokens_apply m c t _ _ ?_ ?_
    · show win0_3.index t (0 : Fin 2) * 4096 + 1 * (y 0).val = win0_0.index t (0 : Fin 2) * 4096 + (y 0).val
      omega
    · show 128 * ((win0_3.index t (1 : Fin 2) * 128 + 1 * (y 1).val) / 128) + k.val
        = win0_0.index t (1 : Fin 2) * 128 + k.val
      omega
  · refine weights_apply m c t _ _ ?_ ?_
    · show win0_3.index t (1 : Fin 2) * 128 + 1 * (y 1).val = win0_1.index t (0 : Fin 2) * 128 + (y 1).val
      omega
    · show 128 * ((win0_3.index t (1 : Fin 2) * 128 + 1 * (y 1).val) / 128) + k.val
        = win0_1.index t (1 : Fin 2) * 128 + k.val
      omega
  · refine bias_apply m c t _ _ ?_ ?_
    · show 0 = win0_2.index t (0 : Fin 2) * 1 + 0
      omega
    · show win0_3.index t (1 : Fin 2) * 128 + 1 * (y 1).val = win0_2.index t (1 : Fin 2) * 128 + (y 1).val
      omega

/-! ## The blocks tile the array -/

/-- An index of the output array is in point `t`'s block iff each coordinate is in the block's range on its axis. -/
theorem mem_block (t : Fin cfg0.N) (i : S8192x8192.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v2).slice (win0_3.rect t)).set ↔ _
  rw [View.set_slice_whole, Rect.mem_set_unit]
  exact Iff.rfl

/-- Every index of the output array lies in the block of the point for its half of the tokens and its diagonal block. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := every_block ⟨(i 0).val / 4096, by omega⟩ ⟨(i 1).val / 128, by omega⟩
  have q0 : win0_3.index t (0 : Fin 2) = (i 0).val / 4096 := congrFun ht 0
  have q1 : win0_3.index t (1 : Fin 2) = (i 1).val / 128 := congrFun ht 1
  refine ⟨t, flush0_3 t, ?_⟩
  rw [mem_block]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 128 ≤ (i 1).val ∧ (i 1).val < win0_3.index t (1 : Fin 2) * 128 + 128
    omega

/-- THE OUTPUT ARRAY after the region: `out2` of the token-major input, the weights and the bias row as the region
    finds them. -/
theorem region_array (c : Dev nD) :
    (dats m 0 c).arrAt 3 cfg0.N = out2 (V m c main_v0) (V m c main_arg1) (V m c main_v1) :=
  (dats m 0 c).arrAt_eq_of_cover 3 (out2 (V m c main_v0) (V m c main_arg1) (V m c main_v1))
    (fun t _ => flushed_eq m c t) (covered)

end Cert.KernelIdeal.Dense

end
-- ==== Proof.Relayout.lean ====
/-
  The two layouts give one function.

  Token `(b, n)` of the `[8, 1024, 8192]` input is row `1024 b + n` of its token-major `[8192, 8192]` reshape (same
  row-major position), the bias `[8192]` reshaped to one row `[1, 8192]` has the same entries, and the `[8192, 8192]`
  result reshaped back to `[8, 1024, 8192]` is read at row `1024 b + n` again.  So `out2` computed on the reshaped
  input and reshaped back is `out3` of the original input.
-/
import proofs.«111860_j61572651155930_2_alg».proof.Proof.Dense
import Idealize.ShloMosaic.Lib.Pipeline.Value
import Idealize.ShloMosaic.Lib.ValueLayout

noncomputable section

namespace Cert.BlockDiag

open Idealize.ShloMosaic Idealize.ShloMosaic.ValueIdx

theorem out2_relaid (x : (⟨3, ![8, 1024, 8192]⟩ : Shape).Idx → EReal) (w : (⟨2, ![8192, 8192]⟩ : Shape).Idx → EReal)
    (bias : (⟨1, ![8192]⟩ : Shape).Idx → EReal)
    (h1 : (⟨3, ![8, 1024, 8192]⟩ : Shape).ShapeCasts ⟨2, ![8192, 8192]⟩)
    (h2 : (⟨1, ![8192]⟩ : Shape).ShapeCasts ⟨2, ![1, 8192]⟩)
    (h3 : (⟨2, ![8192, 8192]⟩ : Shape).ShapeCasts ⟨3, ![8, 1024, 8192]⟩) :
    shapeCast ⟨3, ![8, 1024, 8192]⟩
        (out2 (shapeCast ⟨2, ![8192, 8192]⟩ x h1) w (shapeCast ⟨2, ![1, 8192]⟩ bias h2)) h3
      = out3 x w bias := by
  funext i
  obtain ⟨b, n, o, rfl⟩ : ∃ (b : Fin 8) (n : Fin 1024) (o : Fin 8192), i = ix3 b n o := ⟨i 0, i 1, i 2, eq_ix3 i⟩
  have hr : b.val * 1024 + n.val < 8192 := by have := b.isLt; have := n.isLt; omega
  refine (shapeCast_apply _ h3 (ix3 b n o) (ix2 (⟨b.val * 1024 + n.val, hr⟩ : Fin 8192) o) (by
    rw [Shape.rowMajor_val_two, Shape.rowMajor_val_three]; rfl)).trans ?_
  unfold out2 out3 pre2 pre3
  refine congrArg wire ?_
  show (∑ j : Fin 128, shapeCast ⟨2, ![8192, 8192]⟩ x h1 (ix2 (⟨b.val * 1024 + n.val, hr⟩ : Fin 8192) (inBlock (blockOf o) j))
        * w (ix2 o (inBlock (blockOf o) j))) + shapeCast ⟨2, ![1, 8192]⟩ bias h2 (ix2 (0 : Fin 1) o)
      = (∑ j : Fin 128, x (ix3 b n (inBlock (blockOf o) j)) * w (ix2 o (inBlock (blockOf o) j))) + bias (ix1 o)
  rw [shapeCast_a_1a_apply]
  refine congrArg (· + bias (ix1 o)) ?_
  refine Finset.sum_congr rfl fun j _ => ?_
  rw [shapeCast_apply x h1 (ix2 (⟨b.val * 1024 + n.val, hr⟩ : Fin 8192) (inBlock (blockOf o) j)) (ix3 b n (inBlock (blockOf o) j)) (by
    rw [Shape.rowMajor_val_two, Shape.rowMajor_val_three]; rfl)]

end Cert.BlockDiag

end
-- ==== Proof.KernelRun.lean ====
/-
  The whole program around the region.

  Before the region the input `[8, 1024, 8192]` is reshaped token-major to `[8192, 8192]` and the bias `[8192]` to one
  row `[1, 8192]`; the weights are passed as they are.  The region leaves `out2` of those three in its output array
  (`region_array`), and the one operation after it reshapes that array back to `[8, 1024, 8192]`.  By `out2_relaid`
  the program's result is `out3` of the three argument arrays as launched.
-/
import proofs.«111860_j61572651155930_2_alg».proof.Proof.RegionArray
import proofs.«111860_j61572651155930_2_alg».proof.Proof.Relayout
import Idealize.ShloMosaic.Lib.StableHlo.Run

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx Cert.BlockDiag Idealize.ShloMosaic.StableHlo
open Idealize.ShloMosaic.Pipeline (Dat)

variable (m : (ℓ : Loc nD τ sig) → Buf (Elt Ideal) ℓ) (ρ : Dev nD → PrngReg)

/-- The token-major input the region finds is the argument reshaped. -/
theorem tokens_entry (c : Dev nD) :
    (V m c main_v0 : S8192x8192.Idx → EReal)
      = shapeCast S8192x8192 (m ((c : Thread nD τ).loc main_arg0)) shapeCasts_S8x1024x8192_S8192x8192 := by
  show StableHlo.after hostOps0 (fun b => m (c, b)) (Proc.devRef .tc main_v0) = _
  after_results
  rfl

/-- The bias row the region finds is the argument reshaped. -/
theorem bias_entry (c : Dev nD) :
    (V m c main_v1 : S1x8192.Idx → EReal)
      = shapeCast S1x8192 (m ((c : Thread nD τ).loc main_arg2)) shapeCasts_S8192_S1x8192 := by
  show StableHlo.after hostOps0 (fun b => m (c, b)) (Proc.devRef .tc main_v1) = _
  after_results
  rfl

/-- The program's result buffer after the reshape that follows the region. -/
theorem result_entry (c : Dev nD) :
    Pipeline.afterTail₀ cfgs (dats m) 0 (V0 m) [hostOps1] c main_v3
      = out3 (m ((c : Thread nD τ).loc main_arg0)) (m ((c : Thread nD τ).loc main_arg1))
          (m ((c : Thread nD τ).loc main_arg2)) := by
  unfold Pipeline.afterTail₀
  show StableHlo.after hostOps1 _ (Proc.devRef .tc main_v3) = _
  after_results
  show shapeCast S8x1024x8192
      (Pipeline.withArrays spec0 c (V0 m c) (fun w => (dats m 0 c).arrAt w cfg0.N) (Proc.devRef .tc (Pipeline.arrRef spec0 3)))
      shapeCasts_S8192x8192_S8x1024x8192 = _
  rw [Pipeline.withArrays_arr spec0 launch0.win.arr_inj c (V0 m c) _ 3, region_array, tokens_entry, bias_entry, V_main_arg1]
  exact out2_relaid _ _ _ _ _ _

/-- THE RUN of the whole program at the ideal values: every weakly fair execution terminates with the result buffer at
    `out3` of the three argument arrays as launched, and the arguments unchanged. -/
theorem run : θ_run defs (onTc (τ := τ) (main (F := Ideal))) ⟨m, fun _ => 0, ρ⟩ fun r => ∀ c : Dev nD,
      r.2.mem ((c.tc : Thread nD τ).loc main_v3)
        = out3 (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_entry m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Dense

end
-- ==== Proof.lean ====
/-
  A block-diagonal linear layer followed by the activation `sin (30 z) * exp (-(0.1 z)^2)`, two ways.

  One program multiplies the `[8192, 8192]` weight by a 0/1 block-diagonal mask (the Kronecker product of the 64 x 64
  identity with a 128 x 128 block of ones), contracts the `[8, 1024, 8192]` input with it over all 8192 input
  features, adds the bias and applies the activation.  The other never touches an off-diagonal block: on a grid of
  64 diagonal blocks by 2 halves of the 8192 tokens it multiplies a `[4096, 128]` block of tokens by the one
  `[128, 128]` diagonal weight block, adds that block's 128 bias entries and applies the same activation, working on
  the token-major `[8192, 8192]` reshape of the input and reshaping the result back.

  At the ideal values (extended reals, exact operations, changes of float format the identity) both results are the
  one function `Cert.BlockDiag.out3` of the three arguments: entry `(b, n, o)` is the activation of
  `sum over the 128 columns k of o's diagonal block of x[b, n, k] * weight[o, k] + bias[o]`.
    * The masked dense contraction is that sum because every term outside the block carries a zero factor of the
      mask, and zero annihilates every extended real (`Cert.BlockDiag.masked_sum`); so the finiteness of the inputs
      is not used.
    * The two programs spell the negation inside the exponential as `-y` and as `0 - y`, the same extended real
      (`Cert.BlockDiag.wire_of_zero_sub`); the scales 30 and 0.1 are the same float literals on both sides.
    * The 128 blocks the grid writes tile the output array, and the reshapes before and after only re-index rows
      (`Cert.KernelIdeal.Dense.region_array`, `Cert.BlockDiag.out2_relaid`).
  The idealization rewrote no operation, so its statement is `True`.
-/
import proofs.«111860_j61572651155930_2_alg».proof.Defs
import proofs.«111860_j61572651155930_2_alg».proof.Proof.Gen.Kernel
import proofs.«111860_j61572651155930_2_alg».proof.Proof.Gen.Kernel.Skeleton
import proofs.«111860_j61572651155930_2_alg».proof.Proof.Gen.Kernel.Launch
import proofs.«111860_j61572651155930_2_alg».proof.Proof.Gen.Kernel.Points
import proofs.«111860_j61572651155930_2_alg».proof.Proof.Gen.Kernel.Frame
import proofs.«111860_j61572651155930_2_alg».proof.Proof.Gen.KernelIdeal
import proofs.«111860_j61572651155930_2_alg».proof.Proof.Gen.KernelIdeal.Skeleton
import proofs.«111860_j61572651155930_2_alg».proof.Proof.Gen.KernelIdeal.Launch
import proofs.«111860_j61572651155930_2_alg».proof.Proof.Gen.KernelIdeal.Points
import proofs.«111860_j61572651155930_2_alg».proof.Proof.Gen.KernelIdeal.Frame
import proofs.«111860_j61572651155930_2_alg».proof.Proof.Gen.ReferenceIdeal
import proofs.«111860_j61572651155930_2_alg».proof.Proof.Gen.Pre_finite_inputs
import proofs.«111860_j61572651155930_2_alg».proof.Proof.Gen.ReferenceIdeal.Run
import proofs.«111860_j61572651155930_2_alg».proof.Proof.Gen.ReferenceIdeal.Read
import proofs.«111860_j61572651155930_2_alg».proof.Proof.RefDense
import proofs.«111860_j61572651155930_2_alg».proof.Proof.KernelRun
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does the same program read at the ideal values. -/
theorem frame_kernelIdeal : Cert.frame_KernelIdeal := fun m ρ _ => Cert.KernelIdeal.Gen.frame m ρ

/-- The masked dense program runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the ideal reading. -/
theorem preserves : Cert.preserves_Kernel_KernelIdeal := trivial

/-- From memories agreeing on the three arguments both programs end with the result `out3` of those arguments. -/
theorem algebraic : Cert.algebraic_KernelIdeal_ReferenceIdeal := by
  intro m ρ m' ρ' _ hagree
  refine ⟨fun c => Cert.BlockDiag.out3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Dense.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
